-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x128 : Shape := ⟨3, ![8, 2048, 128]⟩
abbrev S_ : Shape := ⟨0, ![]⟩

class Facts : Prop where
  bcast_S_S8x2048x128 : S_.BroadcastsInDim S8x2048x128 (![] : Fin 0 → Fin S8x2048x128.rank)
  reducesTo_S8x2048x128_S_d0_1_2 : S8x2048x128.ReducesTo [0, 1, 2] S_
  h_S_ : 0 < S_.numel

variable [Facts]

def fn {F : FTy → Type} [FloatOps F] (main_arg0 : FVec F S8x2048x128 .f32) (main_arg1 : FVec F S8x2048x128 .f32) : IVec S_ 1 :=
  let main_v0 : FVec F S8x2048x128 .f32 := Host.absf main_arg0
  let main_cst : FVec F S_ .f32 := constant S_ .f32 0x7F800000#32
  let main_v1 : FVec F S8x2048x128 .f32 := broadcastInDim S8x2048x128 ![] bcast_S_S8x2048x128 main_cst
  let main_v2 : IVec S8x2048x128 1 := cmpf .olt main_v0 main_v1
  let main_c : IVec S_ 1 := constantI S_ 1 1#1
  let main_v3 : IVec S_ 1 := (fun x v => Host.reduce IntOp.andi x v reducesTo_S8x2048x128_S_d0_1_2 h_S_) main_v2 main_c
  let main_v4 : FVec F S8x2048x128 .f32 := Host.absf main_arg1
  let main_cst_0 : FVec F S_ .f32 := constant S_ .f32 0x7F800000#32
  let main_v5 : FVec F S8x2048x128 .f32 := broadcastInDim S8x2048x128 ![] bcast_S_S8x2048x128 main_cst_0
  let main_v6 : IVec S8x2048x128 1 := cmpf .olt main_v4 main_v5
  let main_c_1 : IVec S_ 1 := constantI S_ 1 1#1
  let main_v7 : IVec S_ 1 := (fun x v => Host.reduce IntOp.andi x v reducesTo_S8x2048x128_S_d0_1_2 h_S_) main_v6 main_c_1
  let main_v8 : IVec S_ 1 := andi main_v3 main_v7
  main_v8
-- ==== Kernel.lean ====
abbrev S8x2048x128 : Shape := ⟨3, ![8, 2048, 128]⟩
abbrev S1x1024x128 : Shape := ⟨3, ![1, 1024, 128]⟩
abbrev S1x2048x128 : Shape := ⟨3, ![1, 2048, 128]⟩
abbrev S1024x128 : Shape := ⟨2, ![1024, 128]⟩
abbrev S2048x128 : Shape := ⟨2, ![2048, 128]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 4
  | .vmem => 6
  | .smem => 0
  | _ => 0

abbrev bufTy : (tb : Table) → Fin (tcTables nBuf tb) → BufTy
  | .hbm, ⟨0, _⟩ => ⟨S8x2048x128, .f32⟩
  | .hbm, ⟨1, _⟩ => ⟨S8x2048x128, .f32⟩
  | .hbm, ⟨2, _⟩ => ⟨S8x2048x128, .bf16⟩
  | .hbm, ⟨3, _⟩ => ⟨S8x2048x128, .f32⟩
  | .local _ .vmem, ⟨0, _⟩ => ⟨S1x1024x128, .f32⟩
  | .local _ .vmem, ⟨1, _⟩ => ⟨S1x1024x128, .f32⟩
  | .local _ .vmem, ⟨2, _⟩ => ⟨S1x2048x128, .bf16⟩
  | .local _ .vmem, ⟨3, _⟩ => ⟨S1x2048x128, .bf16⟩
  | .local _ .vmem, ⟨4, _⟩ => ⟨S1x1024x128, .f32⟩
  | .local _ .vmem, ⟨5, _⟩ => ⟨S1x1024x128, .f32⟩
  | _, _ => ⟨S8x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bitsLt_bf16_f32 : FTy.bits .bf16 < FTy.bits .f32
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  reduces_S1024x2048_S1024 : S1024x2048.Reduces [1] S1024
  shapeCasts_S1024_S1024x1 : S1024.ShapeCasts S1024x1
  broadcasts_S1024x1_S1024x2048 : S1024x1.Broadcasts S1024x2048
  shapeCasts_S1024x128_S1x1024x128 : S1024x128.ShapeCasts S1x1024x128
  dot_S1024x128_S2048x128_S1024x2048_1_1_0_0_n_n_wf : DotDims.WF S1024x128 S2048x128 S1024x2048 [1] [1] [0] [0] [] []
  dot_S1024x2048_S2048x128_S1024x128_1_0_0_1_n_n_wf : DotDims.WF S1024x2048 S2048x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x128.size a ≤ S8x2048x128.size a
  hwx0_0 : ∀ i : grid0.Coords, EltTy.bits .f32 = 32 ∨ (Rect.block (s := S8x2048x128) S1x1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x128.size a ≤ S8x2048x128.size a
  hwx0_1 : ∀ i : grid0.Coords, EltTy.bits .bf16 = 32 ∨ (Rect.block (s := S8x2048x128) S1x2048x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x128.size a ≤ S8x2048x128.size a
  hwx0_2 : ∀ i : grid0.Coords, EltTy.bits .f32 = 32 ∨ (Rect.block (s := S8x2048x128) S1x1024x128.size (cc0_transform_2 i) (hinb0_2 i)).WholeWords (EltTy.packing .f32)

variable [Facts₀]

def dot_S1024x128_S2048x128_S1024x2048_1_1_0_0_n_n : DotDims S1024x128 S2048x128 S1024x2048 where
  lhsContracting := [1]
  rhsContracting := [1]
  lhsNonContracting := [0]
  rhsNonContracting := [0]
  lhsBatch := []
  rhsBatch := []
  wf := dot_S1024x128_S2048x128_S1024x2048_1_1_0_0_n_n_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf

abbrev win0_0 : Pipeline.Window sig grid0 :=
  Pipeline.Window.ofSpec (Memref.whole main_arg0) S1x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x2048x128 : Shape := ⟨3, ![8, 2048, 128]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 19
  | .vmem => 0
  | .smem => 0
  | _ => 0

abbrev bufTy : (tb : Table) → Fin (tcTables nBuf tb) → BufTy
  | .hbm, ⟨0, _⟩ => ⟨S8x2048x128, .f32⟩
  | .hbm, ⟨1, _⟩ => ⟨S8x2048x128, .f32⟩
  | .hbm, ⟨2, _⟩ => ⟨S8x2048x2048, .f32⟩
  | .hbm, ⟨3, _⟩ => ⟨S_, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S8x2048x1, .f32⟩
  | .hbm, ⟨9, _⟩ => ⟨S8x2048x2048, .f32⟩
  | .hbm, ⟨10, _⟩ => ⟨S8x2048x2048, .f32⟩
  | .hbm, ⟨11, _⟩ => ⟨S8x2048x2048, .f32⟩
  | .hbm, ⟨12, _⟩ => ⟨S_, .f32⟩
  | .hbm, ⟨13, _⟩ => ⟨S8x2048, .f32⟩
  | .hbm, ⟨14, _⟩ => ⟨S8x2048x1, .f32⟩
  | .hbm, ⟨15, _⟩ => ⟨S8x2048x2048, .f32⟩
  | .hbm, ⟨16, _⟩ => ⟨S8x2048x2048, .f32⟩
  | .hbm, ⟨17, _⟩ => ⟨S8x2048x128, .f32⟩
  | .hbm, ⟨18, _⟩ => ⟨S8x2048x128, .f32⟩
  | _, _ => ⟨S8x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]

class Facts₀ : Prop where
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x128_S8x2048x128_S8x2048x2048_2_2_1_1_0_0_wf : DotDims.WF S8x2048x128 S8x2048x128 S8x2048x2048 [2] [2] [1] [1] [0] [0]
  dot_S8x2048x2048_S8x2048x128_S8x2048x128_2_1_1_2_0_0_wf : DotDims.WF S8x2048x2048 S8x2048x128 S8x2048x128 [2] [1] [1] [2] [0] [0]

variable [Facts₀]

def dot_S8x2048x128_S8x2048x128_S8x2048x2048_2_2_1_1_0_0 : DotDims S8x2048x128 S8x2048x128 S8x2048x2048 where
  lhsContracting := [2]
  rhsContracting := [2]
  lhsNonContracting := [1]
  rhsNonContracting := [1]
  lhsBatch := [0]
  rhsBatch := [0]
  wf := dot_S8x2048x128_S8x2048x128_S8x2048x2048_2_2_1_1_0_0_wf
def dot_S8x2048x2048_S8x2048x128_S8x2048x128_2_1_1_2_0_0 : DotDims S8x2048x2048 S8x2048x128 S8x2048x128 where
  lhsContracting := [2]
  rhsContracting := [1]
  lhsNonContracting := [1]
  rhsNonContracting := [2]
  lhsBatch := [0]
  rhsBatch := [0]
  wf := dot_S8x2048x2048_S8x2048x128_S8x2048x128_2_1_1_2_0_0_wf

class Facts : Prop extends Facts₀ where

variable [Facts]
-- ==== Proof.Spec.lean ====
/-
  Attention over a batch, with the query added back: the result as ONE function of the two argument arrays.

  One query row `q` (128 numbers) meets a key matrix `K` (2048 rows of 128 numbers). The score of key row `j` is the
  inner product of `q` and row `j` of `K`. The scores are turned into weights by the softmax: the largest score is
  taken off each score, the exponential is applied, and each exponential is divided by the sum of the exponentials.
  The attended value at column `d` is the weighted sum over `j` of `K j d`.

  The result at `(b, i, d)` is `x` there plus the attended value at `d` of row `i` of batch entry `b` of `x` against
  batch entry `b` of `y`.

  Everything is on the extended reals. The largest score is the fold of `max` from −∞, written with the bit pattern
  both programs give it, so that no side ever has to evaluate the pattern.
-/
import Idealize.ShloMosaic.PureOps.Ideal
import Idealize.ShloMosaic.Lib.ValueIdx
import Mathlib.Data.Finset.Fold

noncomputable section

namespace Cert.Attention

open Idealize.ShloMosaic Idealize.ShloMosaic.ValueIdx

/-- Eight matrices of 2048 rows and 128 columns of extended reals. -/
abbrev Arr : Type := (⟨3, ![8, 2048, 128]⟩ : Shape).Idx → EReal

/-- One query row. -/
abbrev Row : Type := Fin 128 → EReal

/-- A key matrix: 2048 rows of 128 columns. -/
abbrev Keys : Type := Fin 2048 → Fin 128 → EReal

/-- −∞, as the f32 pattern both programs start a row's maximum from. -/
abbrev negInf : EReal := Ideal.ofBits .f32 0xFF800000#32

/-- The score of the query row against key row `j`. -/
def score (q : Row) (K : Keys) (j : Fin 2048) : EReal := ∑ k : Fin 128, q k * K j k

/-- The largest score. -/
def rowMax (q : Row) (K : Keys) : EReal := (Finset.univ : Finset (Fin 2048)).fold max negInf (score q K)

/-- The exponential of a score with the largest score taken off. -/
def weight (q : Row) (K : Keys) (j : Fin 2048) : EReal := Ideal.exp (score q K j - rowMax q K)

/-- The sum of the exponentials. -/
def total (q : Row) (K : Keys) : EReal := ∑ j : Fin 2048, weight q K j

/-- The attended value at column `d`: the sum over key rows of the normalised weight times the key matrix's entry. -/
def attend (q : Row) (K : Keys) (d : Fin 128) : EReal :=
  ∑ j : Fin 2048, Ideal.div (weight q K j) (total q K) * K j d

/-- Row `i` of batch entry `b`. -/
def rowOf (x : Arr) (b : Fin 8) (i : Fin 2048) : Row := fun k => x (ix3 b i k)

/-- Batch entry `b` as a key matrix. -/
def keysOf (y : Arr) (b : Fin 8) : Keys := fun j k => y (ix3 b j k)

/-- The whole result: the query plus the attended value. -/
def out (x y : Arr) : Arr := fun idx => x idx + attend (rowOf x (idx 0) (idx 1)) (keysOf y (idx 0)) (idx 2)

theorem out_ix3 (x y : Arr) (b : Fin 8) (i : Fin 2048) (d : Fin 128) :
    out x y (ix3 b i d) = x (ix3 b i d) + attend (rowOf x b i) (keysOf y b) d := rfl

/-- A fold of `max` from `c` is at least `c`, so taking the maximum with `c` once more changes nothing. -/
theorem max_fold_start {ι : Type*} (s : Finset ι) (c : EReal) (f : ι → EReal) :
    max c (s.fold max c f) = s.fold max c f :=
  max_eq_right ((Finset.le_fold_max c).mpr (Or.inl le_rfl))

end Cert.Attention

end
-- ==== Proof.RefIsSpec.lean ====
/-
  The reference computes the attention function.

  The reference's stages are read one at a time at coordinates `(b, i, j)` or `(b, i, d)`: the first product is the score;
  the row maximum is the fold of `max` from −∞ over the key rows, and the extra maximum with −∞ the reference takes
  afterwards changes nothing, since a fold of `max` from −∞ is at least −∞; the exponential of the difference is the
  weight; the row sum from zero is the total; the quotient and the second product give the attended value; and the
  last sum adds the query.
-/
import proofs.«177435_j50568944943603_2_alg».proof.Proof.Gen.ReferenceIdeal.Read
import proofs.«177435_j50568944943603_2_alg».proof.Proof.Spec

noncomputable section

namespace Cert.Attention.Ref

open Cert.ReferenceIdeal Cert.ReferenceIdeal.Gen Cert.ReferenceIdeal.Read Cert.Attention
open Idealize.ShloMosaic Idealize.ShloMosaic.ValueIdx

variable (x y : Arr)

/-- The first product at `(b, i, j)` is the score. -/
theorem v0_at (b : Fin 8) (i j : Fin 2048) : val_main_v0 (F := Ideal) x y (ix3 b i j) = score (rowOf x b i) (keysOf y b) j := by
  rw [val_main_v0_apply]
  unfold score rowOf keysOf
  refine Finset.sum_congr rfl fun k _ => ?_
  rw [show lidx_main_v0 (ix3 b i j) k = ix3 b i k from
        funext fun a => Fin.ext (by match a with | ⟨0, _⟩ => rfl | ⟨1, _⟩ => rfl | ⟨2, _⟩ => rfl),
      show ridx_main_v0 (ix3 b i j) k = ix3 b j k from
        funext fun a => Fin.ext (by match a with | ⟨0, _⟩ => rfl | ⟨1, _⟩ => rfl | ⟨2, _⟩ => rfl)]

/-- The row maximum at `(b, i)`: a fold of `max` from −∞ over the key rows' scores. -/
theorem v1_at (b : Fin 8) (i : Fin 2048) : val_main_v1 (F := Ideal) x y (ix2 b i) = rowMax (rowOf x b i) (keysOf y b) := by
  have h : S8x2048x2048.Reduces [2] S8x2048 := by decide
  unfold val_main_v1
  rw [Host.reduce_eq_fold_single FloatOps.maximumf _ _ reducesTo_S8x2048x2048_S8x2048_d2 h h_S_ (ix2 b i)]
  unfold rowMax
  show Finset.fold max negInf _ Finset.univ = Finset.fold max negInf _ Finset.univ
  congr 1
  funext j
  show val_main_v0 (F := Ideal) x y (h.lift (ix2 b i) j) = score (rowOf x b i) (keysOf y b) j
  rw [show h.lift (ix2 b i) j = ix3 b i j from
        funext fun a => Fin.ext (by match a with | ⟨0, _⟩ => rfl | ⟨1, _⟩ => rfl | ⟨2, _⟩ => rfl)]
  exact v0_at x y b i j

/-- The row maximum spread over the key rows: at `(b, i, j)` it is the row maximum of `(b, i)`. -/
theorem v5_at (b : Fin 8) (i j : Fin 2048) : val_main_v5 (F := Ideal) x y (ix3 b i j) = rowMax (rowOf x b i) (keysOf y b) := by
  rw [val_main_v5_apply, val_main_v4_apply,
    show idx_main_v4 (idx_main_v5 (ix3 b i j)) = ix2 b i from
      funext fun a => Fin.ext (by match a with | ⟨0, _⟩ => rfl | ⟨1, _⟩ => rfl),
    val_main_v3_apply, val_main_v2_apply, val_main_cst_0_apply, v1_at]
  exact max_fold_start _ _ _

/-- The exponential stage at `(b, i, j)` is the weight. -/
theorem v7_at (b : Fin 8) (i j : Fin 2048) : val_main_v7 (F := Ideal) x y (ix3 b i j) = weight (rowOf x b i) (keysOf y b) j := by
  rw [val_main_v7_apply, val_main_v6_apply, v0_at, v5_at]
  rfl

/-- The row sum spread over the key rows: at `(b, i, j)` it is the total of `(b, i)`. -/
theorem v10_at (b : Fin 8) (i j : Fin 2048) : val_main_v10 (F := Ideal) x y (ix3 b i j) = total (rowOf x b i) (keysOf y b) := by
  rw [val_main_v10_apply, val_main_v9_apply,
    show idx_main_v9 (idx_main_v10 (ix3 b i j)) = ix2 b i from
      funext fun a => Fin.ext (by match a with | ⟨0, _⟩ => rfl | ⟨1, _⟩ => rfl),
    val_main_v8_apply, val_main_cst_1_apply]
  show Ideal.ofBits .f32 0x00000000#32 + _ = _
  rw [Ideal.ofBits_zero_f32, zero_add]
  unfold total
  refine Finset.sum_congr rfl fun k _ => ?_
  rw [show idx_main_v8 (ix2 b i) k = ix3 b i k from
        funext fun a => Fin.ext (by match a with | ⟨0, _⟩ => rfl | ⟨1, _⟩ => rfl | ⟨2, _⟩ => rfl)]
  exact v7_at x y b i k

/-- The quotient stage at `(b, i, j)`: the weight over the total. -/
theorem v11_at (b : Fin 8) (i j : Fin 2048) :
    val_main_v11 (F := Ideal) x y (ix3 b i j) = Ideal.div (weight (rowOf x b i) (keysOf y b) j) (total (rowOf x b i) (keysOf y b)) := by
  rw [val_main_v11_apply, v7_at, v10_at]
  rfl

/-- The second product at `(b, i, d)` is the attended value. -/
theorem v12_at (b : Fin 8) (i : Fin 2048) (d : Fin 128) :
    val_main_v12 (F := Ideal) x y (ix3 b i d) = attend (rowOf x b i) (keysOf y b) d := by
  rw [val_main_v12_apply]
  unfold attend
  refine Finset.sum_congr rfl fun k _ => ?_
  rw [show lidx_main_v12 (ix3 b i d) k = ix3 b i k from
        funext fun a => Fin.ext (by match a with | ⟨0, _⟩ => rfl | ⟨1, _⟩ => rfl | ⟨2, _⟩ => rfl),
      show ridx_main_v12 (ix3 b i d) k = ix3 b k d from
        funext fun a => Fin.ext (by match a with | ⟨0, _⟩ => rfl | ⟨1, _⟩ => rfl | ⟨2, _⟩ => rfl),
      v11_at]
  rfl

/-- The reference's last stage is the attention function of its two arguments. -/
theorem result_eq : val_main_v13 (F := Ideal) x y = out x y := by
  funext idx
  obtain ⟨b, i, d, rfl⟩ : ∃ (b : Fin 8) (i : Fin 2048) (d : Fin 128), idx = ix3 b i d :=
    ⟨idx 0, idx 1, idx 2, eq_ix3 idx⟩
  rw [val_main_v13_apply, v12_at, out_ix3]
  rfl

end Cert.Attention.Ref

end
-- ==== Proof.LibContract.lean ====
/-
  A contraction over ONE axis, read as a sum over that axis's coordinate.

  A matrix product on the TensorCore (into a zero accumulator) and the host's `dot_general` are, at the ideal values, the
  sum over the contraction index of the operands' products. When one axis is contracted the contraction index is a single
  coordinate `i < n`, and the sum is the `Fin n`-indexed sum of whatever the two operands are at the operand indices
  that coordinate selects.
-/
import Idealize.ShloMosaic.PureOps.Ideal.Laws
import Idealize.ShloMosaic.Lib.ValueIdx

namespace Idealize.ShloMosaic.ContractSingle

open Idealize.ShloMosaic.ValueIdx

/-- The sum over a one-axis contraction index, with the operands' factors named at each coordinate `i` of the contracted
    axis (`hl`, `hr`), is the sum of the named factors' products over `i`. -/
theorem sum_single {sl sr so : Shape} (d : DotDims sl sr so) (n : Nat) (hrank : d.contr.rank = 1)
    (hsize : d.contr.size ⟨0, by omega⟩ = n) (l : sl.Idx → EReal) (r : sr.Idx → EReal) (j : so.Idx) (L R : Fin n → EReal)
    (hl : ∀ i : Fin n, l (d.lhsIdx j ((contrEquiv1 d n hrank hsize).symm i)) = L i)
    (hr : ∀ i : Fin n, r (d.rhsIdx j ((contrEquiv1 d n hrank hsize).symm i)) = R i) :
    ∑ k : d.contr.Idx, l (d.lhsIdx j k) * r (d.rhsIdx j k) = ∑ i : Fin n, L i * R i := by
  rw [← Equiv.sum_comp (contrEquiv1 d n hrank hsize).symm]
  exact Finset.sum_congr rfl fun i _ => by rw [hl i, hr i]

/-- A TensorCore matrix product into the zero accumulator, one axis contracted, read at an output index. -/
theorem matmul_zero_single {sl sr so : Shape} {φ₁ φ₂ : FTy} (d : DotDims sl sr so) (prec : Option ContractPrecision) (n : Nat)
    (hrank : d.contr.rank = 1) (hsize : d.contr.size ⟨0, by omega⟩ = n)
    (lhs : FVec Ideal sl φ₁) (rhs : FVec Ideal sr φ₂) (j : so.Idx) (L R : Fin n → EReal)
    (hl : ∀ i : Fin n, lhs (d.lhsIdx j ((contrEquiv1 d n hrank hsize).symm i)) = L i)
    (hr : ∀ i : Fin n, rhs (d.rhsIdx j ((contrEquiv1 d n hrank hsize).symm i)) = R i) :
    FloatOps.matmul d prec lhs rhs (constant so .f32 0x00000000#32) j = ∑ i : Fin n, L i * R i :=
  (Ideal.matmul_constant_zero_apply d prec lhs rhs j).trans (sum_single d n hrank hsize lhs rhs j L R hl hr)

/-- The host's `dot_general`, one axis contracted, read at an output index. -/
theorem dotGeneral_single {sl sr so : Shape} {φ₁ φ₂ : FTy} (d : DotDims sl sr so) (prec : Option ContractPrecision)
    (sched : HostSchedule) (n : Nat) (hrank : d.contr.rank = 1) (hsize : d.contr.size ⟨0, by omega⟩ = n)
    (lhs : FVec Ideal sl φ₁) (rhs : FVec Ideal sr φ₂) (j : so.Idx) (L R : Fin n → EReal)
    (hl : ∀ i : Fin n, lhs (d.lhsIdx j ((contrEquiv1 d n hrank hsize).symm i)) = L i)
    (hr : ∀ i : Fin n, rhs (d.rhsIdx j ((contrEquiv1 d n hrank hsize).symm i)) = R i) :
    FloatOps.dotGeneral d prec sched lhs rhs j = ∑ i : Fin n, L i * R i :=
  (Ideal.dotGeneral_apply d prec sched lhs rhs j).trans (sum_single d n hrank hsize lhs rhs j L R hl hr)

end Idealize.ShloMosaic.ContractSingle
-- ==== Proof.LibRowLayout.lean ====
/-
  Layout operations on matrices, read at a row and a column.

  Two matrices with the same rows set side by side read, at a column, the left one when the column is inside its width
  and the right one, the left width less, otherwise. Two vectors set end to end read the same way. A column vector
  (one entry per row) spread over the columns reads its row's entry at every column; a vector given a trailing unit
  axis reads its entry at the row. A scalar spread over any shape reads the scalar.
-/
import Idealize.ShloMosaic.Lib.Pipeline.Value
import Idealize.ShloMosaic.Lib.ValueIdx
import Idealize.ShloMosaic.Lib.ValueLayout

namespace Idealize.ShloMosaic.RowLayout

open Idealize.ShloMosaic.ValueIdx

variable {α : Type}

/-- Side by side along the columns: a column inside the left width reads the left matrix there. -/
theorem concat_cols_left {n a b c : Nat} (x₁ : (⟨2, ![n, a]⟩ : Shape).Idx → α) (x₂ : (⟨2, ![n, b]⟩ : Shape).Idx → α)
    (h : Shape.Concatenates [(⟨2, ![n, a]⟩ : Shape), ⟨2, ![n, b]⟩] ⟨2, ![n, c]⟩ 1) (r : Fin n) (k : Fin c) (k' : Fin a)
    (hk : k'.val = k.val) :
    concatenate ⟨2, ![n, c]⟩ 1 [⟨⟨2, ![n, a]⟩, x₁⟩, ⟨⟨2, ![n, b]⟩, x₂⟩] h (ix2 r k) = x₁ (ix2 r k') :=
  concatenate_pair_apply_left 1 x₁ x₂ h (ix2 r k) rfl (ix2 r k') fun d => by
    match d with
    | ⟨0, _⟩ => rfl
    | ⟨1, _⟩ => exact hk

/-- Side by side along the columns: a column past the left width reads the right matrix, the left width less. -/
theorem concat_cols_right {n a b c : Nat} (x₁ : (⟨2, ![n, a]⟩ : Shape).Idx → α) (x₂ : (⟨2, ![n, b]⟩ : Shape).Idx → α)
    (h : Shape.Concatenates [(⟨2, ![n, a]⟩ : Shape), ⟨2, ![n, b]⟩] ⟨2, ![n, c]⟩ 1) (r : Fin n) (k : Fin c) (k' : Fin b)
    (hk : k'.val + a = k.val) :
    concatenate ⟨2, ![n, c]⟩ 1 [⟨⟨2, ![n, a]⟩, x₁⟩, ⟨⟨2, ![n, b]⟩, x₂⟩] h (ix2 r k) = x₂ (ix2 r k') :=
  concatenate_pair_apply_right 1 x₁ x₂ h (ix2 r k) rfl rfl (ix2 r k') (fun d hd => by
    match d with
    | ⟨0, _⟩ => rfl
    | ⟨1, _⟩ => exact absurd rfl hd) hk

/-- End to end: a position inside the first length reads the first vector there. -/
theorem concat_vec_left {a b c : Nat} (x₁ : (⟨1, ![a]⟩ : Shape).Idx → α) (x₂ : (⟨1, ![b]⟩ : Shape).Idx → α)
    (h : Shape.Concatenates [(⟨1, ![a]⟩ : Shape), ⟨1, ![b]⟩] ⟨1, ![c]⟩ 0) (k : Fin c) (k' : Fin a) (hk : k'.val = k.val) :
    concatenate ⟨1, ![c]⟩ 0 [⟨⟨1, ![a]⟩, x₁⟩, ⟨⟨1, ![b]⟩, x₂⟩] h (ix1 k) = x₁ (ix1 k') :=
  concatenate_pair_apply_left 0 x₁ x₂ h (ix1 k) rfl (ix1 k') fun d => by
    match d with
    | ⟨0, _⟩ => exact hk

/-- End to end: a position past the first length reads the second vector, the first length less. -/
theorem concat_vec_right {a b c : Nat} (x₁ : (⟨1, ![a]⟩ : Shape).Idx → α) (x₂ : (⟨1, ![b]⟩ : Shape).Idx → α)
    (h : Shape.Concatenates [(⟨1, ![a]⟩ : Shape), ⟨1, ![b]⟩] ⟨1, ![c]⟩ 0) (k : Fin c) (k' : Fin b) (hk : k'.val + a = k.val) :
    concatenate ⟨1, ![c]⟩ 0 [⟨⟨1, ![a]⟩, x₁⟩, ⟨⟨1, ![b]⟩, x₂⟩] h (ix1 k) = x₂ (ix1 k') :=
  concatenate_pair_apply_right 0 x₁ x₂ h (ix1 k) rfl rfl (ix1 k') (fun d hd => by
    match d with
    | ⟨0, _⟩ => exact absurd rfl hd) hk

/-- A column vector spread over `b` columns reads, at `(p, c)`, its entry of row `p`. -/
theorem broadcastTo_a1_ab_apply {a b : Nat} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector given a trailing unit axis reads, at `(p, u)`, its entry `p`. -/
theorem shapeCast_a_a1_apply {a : Nat} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A scalar spread over any shape reads the scalar everywhere. -/
theorem spread_scalar {t : Shape} (h : (⟨0, ![]⟩ : Shape).BroadcastsInDim t ![]) (x : (⟨0, ![]⟩ : Shape).Idx → α) (j : t.Idx) :
    broadcastInDim t ![] h x j = x ix0 :=
  broadcastInDim_apply _ h x j ix0 (fun a => a.elim0)

/-- Two pieces joined along an axis, as a function of the two pieces: the library's `concatenate` of the two-element list of
    the pieces paired with their shapes. -/
def concat2 (t : Shape) (a : Fin t.rank) (s₁ s₂ : Shape) (x₁ : s₁.Idx → α) (x₂ : s₂.Idx → α)
    (h : Shape.Concatenates [s₁, s₂] t a) : t.Idx → α :=
  concatenate t a [⟨s₁, x₁⟩, ⟨s₂, x₂⟩] h

theorem concat2_eq (t : Shape) (a : Fin t.rank) (s₁ s₂ : Shape) (x₁ : s₁.Idx → α) (x₂ : s₂.Idx → α)
    (h : Shape.Concatenates [s₁, s₂] t a) :
    concatenate t a [⟨s₁, x₁⟩, ⟨s₂, x₂⟩] h = concat2 t a s₁ s₂ x₁ x₂ h := rfl

end Idealize.ShloMosaic.RowLayout
-- ==== Proof.Payload.lean ====
/-
  What the body writes at one grid point, entry by entry.

  The body loads a block of 1024 query rows and the whole key matrix of the same batch entry. Its stages are: the
  product of the query rows with the transposed key matrix (the scores); each row's largest score; the exponential of
  the scores less that maximum; each row's sum of exponentials; the quotient; the product of the quotients with the
  key matrix; and the query block added to that. A change of float format is the identity on the extended reals.
  Read at row `r` and column `d`, the block written is the query's entry plus the attended value of row `r` of the
  query block against the key block.
-/
import proofs.«177435_j50568944943603_2_alg».proof.Proof.Gen.KernelIdeal.Skeleton
import proofs.«177435_j50568944943603_2_alg».proof.Proof.Spec
import proofs.«177435_j50568944943603_2_alg».proof.Proof.LibContract
import proofs.«177435_j50568944943603_2_alg».proof.Proof.LibRowLayout
import Idealize.ShloMosaic.Lib.ValueLayout
import Idealize.ShloMosaic.PureOps.Ideal.Laws

noncomputable section

namespace Cert.Attention.Body

open Cert.KernelIdeal Cert.KernelIdeal.Gen Cert.Attention
open Idealize.ShloMosaic Idealize.ShloMosaic.ValueIdx

/-! ## The two products' operand indices -/

theorem qk_lhs0 (j : S1024x2048.Idx) (q : dot_S1024x128_S2048x128_S1024x2048_1_1_0_0_n_n.contr.Idx) : (dot_S1024x128_S2048x128_S1024x2048_1_1_0_0_n_n.lhsIdx j q 0).val = (j 0).val := by
  unfold DotDims.lhsIdx
  rw [dif_neg (show ¬(0 : Fin S1024x128.rank) ∈ dot_S1024x128_S2048x128_S1024x2048_1_1_0_0_n_n.lhsBatch by decide),
    dif_pos (show (0 : Fin S1024x128.rank) ∈ dot_S1024x128_S2048x128_S1024x2048_1_1_0_0_n_n.lhsNonContracting by decide)]
  rfl
theorem qk_lhs1 (j : S1024x2048.Idx) (q : dot_S1024x128_S2048x128_S1024x2048_1_1_0_0_n_n.contr.Idx) : (dot_S1024x128_S2048x128_S1024x2048_1_1_0_0_n_n.lhsIdx j q 1).val = (q ⟨0, by decide⟩).val :=
  dot_S1024x128_S2048x128_S1024x2048_1_1_0_0_n_n.lhsIdx_val_of_single rfl j q
theorem qk_rhs0 (j : S1024x2048.Idx) (q : dot_S1024x128_S2048x128_S1024x2048_1_1_0_0_n_n.contr.Idx) : (dot_S1024x128_S2048x128_S1024x2048_1_1_0_0_n_n.rhsIdx j q 0).val = (j 1).val := by
  unfold DotDims.rhsIdx
  rw [dif_neg (show ¬(0 : Fin S2048x128.rank) ∈ dot_S1024x128_S2048x128_S1024x2048_1_1_0_0_n_n.rhsBatch by decide),
    dif_pos (show (0 : Fin S2048x128.rank) ∈ dot_S1024x128_S2048x128_S1024x2048_1_1_0_0_n_n.rhsNonContracting by decide)]
  rfl
theorem qk_rhs1 (j : S1024x2048.Idx) (q : dot_S1024x128_S2048x128_S1024x2048_1_1_0_0_n_n.contr.Idx) : (dot_S1024x128_S2048x128_S1024x2048_1_1_0_0_n_n.rhsIdx j q 1).val = (q ⟨0, by decide⟩).val :=
  dot_S1024x128_S2048x128_S1024x2048_1_1_0_0_n_n.rhsIdx_val_of_single rfl j q

theorem pv_lhs0 (j : S1024x128.Idx) (q : dot_S1024x2048_S2048x128_S1024x128_1_0_0_1_n_n.contr.Idx) : (dot_S1024x2048_S2048x128_S1024x128_1_0_0_1_n_n.lhsIdx j q 0).val = (j 0).val := by
  unfold DotDims.lhsIdx
  rw [dif_neg (show ¬(0 : Fin S1024x2048.rank) ∈ dot_S1024x2048_S2048x128_S1024x128_1_0_0_1_n_n.lhsBatch by decide),
    dif_pos (show (0 : Fin S1024x2048.rank) ∈ dot_S1024x2048_S2048x128_S1024x128_1_0_0_1_n_n.lhsNonContracting by decide)]
  rfl
theorem pv_lhs1 (j : S1024x128.Idx) (q : dot_S1024x2048_S2048x128_S1024x128_1_0_0_1_n_n.contr.Idx) : (dot_S1024x2048_S2048x128_S1024x128_1_0_0_1_n_n.lhsIdx j q 1).val = (q ⟨0, by decide⟩).val :=
  dot_S1024x2048_S2048x128_S1024x128_1_0_0_1_n_n.lhsIdx_val_of_single rfl j q
theorem pv_rhs0 (j : S1024x128.Idx) (q : dot_S1024x2048_S2048x128_S1024x128_1_0_0_1_n_n.contr.Idx) : (dot_S1024x2048_S2048x128_S1024x128_1_0_0_1_n_n.rhsIdx j q 0).val = (q ⟨0, by decide⟩).val :=
  dot_S1024x2048_S2048x128_S1024x128_1_0_0_1_n_n.rhsIdx_val_of_single rfl j q
theorem pv_rhs1 (j : S1024x128.Idx) (q : dot_S1024x2048_S2048x128_S1024x128_1_0_0_1_n_n.contr.Idx) : (dot_S1024x2048_S2048x128_S1024x128_1_0_0_1_n_n.rhsIdx j q 1).val = (j 1).val := by
  unfold DotDims.rhsIdx
  rw [dif_neg (show ¬(1 : Fin S2048x128.rank) ∈ dot_S1024x2048_S2048x128_S1024x128_1_0_0_1_n_n.rhsBatch by decide),
    dif_pos (show (1 : Fin S2048x128.rank) ∈ dot_S1024x2048_S2048x128_S1024x128_1_0_0_1_n_n.rhsNonContracting by decide)]
  rfl

/-- Rows against rows: the first product at `(r, j)` is the inner product of row `r` of the left operand and row `j`
    of the right one. -/
theorem rows_rows_at (a : FVec Ideal S1024x128 .bf16) (w : FVec Ideal S2048x128 .bf16) (r : Fin 1024) (j : Fin 2048) :
    matmul dot_S1024x128_S2048x128_S1024x2048_1_1_0_0_n_n none a w (constant (F := Ideal) S1024x2048 .f32 0x00000000#32) (ix2 r j)
      = ∑ k : Fin 128, a (ix2 r k) * w (ix2 j k) := by
  refine ContractSingle.matmul_zero_single dot_S1024x128_S2048x128_S1024x2048_1_1_0_0_n_n none 128 rfl rfl a w (ix2 r j)
    (fun k => a (ix2 r k)) (fun k => w (ix2 j k)) (fun k => ?_) (fun k => ?_)
  · have hk := contrEquiv1_symm_val dot_S1024x128_S2048x128_S1024x2048_1_1_0_0_n_n 128 rfl rfl k
    exact congrArg a (funext fun c => Fin.ext (by
      match c with
      | ⟨0, _⟩ => exact qk_lhs0 _ _
      | ⟨1, _⟩ => exact (qk_lhs1 _ _).trans hk))
  · have hk := contrEquiv1_symm_val dot_S1024x128_S2048x128_S1024x2048_1_1_0_0_n_n 128 rfl rfl k
    exact congrArg w (funext fun c => Fin.ext (by
      match c with
      | ⟨0, _⟩ => exact qk_rhs0 _ _
      | ⟨1, _⟩ => exact (qk_rhs1 _ _).trans hk))

/-- Rows against columns: the second product at `(r, d)` is the sum over `j` of the left operand at `(r, j)` times the
    right one at `(j, d)`. -/
theorem rows_cols_at (p : FVec Ideal S1024x2048 .bf16) (w : FVec Ideal S2048x128 .bf16) (r : Fin 1024) (d : Fin 128) :
    matmul dot_S1024x2048_S2048x128_S1024x128_1_0_0_1_n_n none p w (constant (F := Ideal) S1024x128 .f32 0x00000000#32) (ix2 r d)
      = ∑ j : Fin 2048, p (ix2 r j) * w (ix2 j d) := by
  refine ContractSingle.matmul_zero_single dot_S1024x2048_S2048x128_S1024x128_1_0_0_1_n_n none 2048 rfl rfl p w (ix2 r d)
    (fun j => p (ix2 r j)) (fun j => w (ix2 j d)) (fun k => ?_) (fun k => ?_)
  · have hk := contrEquiv1_symm_val dot_S1024x2048_S2048x128_S1024x128_1_0_0_1_n_n 2048 rfl rfl k
    exact congrArg p (funext fun c => Fin.ext (by
      match c with
      | ⟨0, _⟩ => exact pv_lhs0 _ _
      | ⟨1, _⟩ => exact (pv_lhs1 _ _).trans hk))
  · have hk := contrEquiv1_symm_val dot_S1024x2048_S2048x128_S1024x128_1_0_0_1_n_n 2048 rfl rfl k
    exact congrArg w (funext fun c => Fin.ext (by
      match c with
      | ⟨0, _⟩ => exact (pv_rhs0 _ _).trans hk
      | ⟨1, _⟩ => exact pv_rhs1 _ _))

/-! ## The body's stages, named -/

variable (xb : FVec Ideal S1x1024x128 .f32) (yb : FVec Ideal S1x2048x128 .bf16)

/-- Row `r` of the query block. -/
def qrow (r : Fin 1024) : Row := fun k => xb (ix3 (0 : Fin 1) r k)

/-- The key block as a key matrix. -/
def kmat : Keys := fun j k => yb (ix3 (0 : Fin 1) j k)

/-- The scores: query rows against key rows. -/
def scores : FVec Ideal S1024x2048 .f32 :=
  matmul dot_S1024x128_S2048x128_S1024x2048_1_1_0_0_n_n none
    (truncf .bf16 (shapeCast S1024x128 xb shapeCasts_S1x1024x128_S1024x128) bitsLt_bf16_f32)
    (shapeCast S2048x128 yb shapeCasts_S1x2048x128_S2048x128) (constant (F := Ideal) S1024x2048 .f32 0x00000000#32)

/-- Each row's largest score. -/
def maxima : FVec Ideal S1024 .f32 :=
  multiReduction (F := Ideal) .maximumf [1] S1024 (scores xb yb) 0xFF800000#32 reduces_S1024x2048_S1024 (.inl rfl) rfl

/-- The exponentials of the scores less their row's maximum. -/
def exps : FVec Ideal S1024x2048 .f32 :=
  exp (subf (scores xb yb)
    (broadcastTo S1024x2048 (shapeCast S1024x1 (maxima xb yb) shapeCasts_S1024_S1024x1) broadcasts_S1024x1_S1024x2048))

/-- Each row's sum of exponentials. -/
def sums : FVec Ideal S1024 .f32 :=
  multiReduction (F := Ideal) .add [1] S1024 (exps xb yb) 0x00000000#32 reduces_S1024x2048_S1024 (.inl rfl) rfl

/-- The exponentials over their row's sum. -/
def quots : FVec Ideal S1024x2048 .f32 :=
  divf (exps xb yb)
    (broadcastTo S1024x2048 (shapeCast S1024x1 (sums xb yb) shapeCasts_S1024_S1024x1) broadcasts_S1024x1_S1024x2048)

/-- The quotients against the key matrix. -/
def mixed : FVec Ideal S1024x128 .f32 :=
  matmul dot_S1024x2048_S2048x128_S1024x128_1_0_0_1_n_n none (truncf .bf16 (quots xb yb) bitsLt_bf16_f32)
    (shapeCast S2048x128 yb shapeCasts_S1x2048x128_S2048x128) (constant (F := Ideal) S1024x128 .f32 0x00000000#32)

/-- The payload the body stores is these stages, composed. -/
theorem payload_eq : k0_pay1 (F := Ideal) xb yb
    = shapeCast S1x1024x128 (addf (shapeCast S1024x128 xb shapeCasts_S1x1024x128_S1024x128) (mixed xb yb))
        shapeCasts_S1024x128_S1x1024x128 := rfl

/-! ## The stages at an index -/

theorem scores_at (r : Fin 1024) (j : Fin 2048) : scores xb yb (ix2 r j) = score (qrow xb r) (kmat yb) j := by
  unfold scores
  rw [rows_rows_at]
  unfold score qrow kmat
  refine Finset.sum_congr rfl fun k _ => ?_
  rw [truncf_apply, shapeCast_1ab_ab_apply, shapeCast_1ab_ab_apply]

theorem lift_row (r : Fin 1024) (j : Fin 2048) : reduces_S1024x2048_S1024.lift (ix1 r) j = ix2 r j :=
  funext fun a => Fin.ext (by match a with | ⟨0, _⟩ => rfl | ⟨1, _⟩ => rfl)

theorem maxima_at (r : Fin 1024) : maxima xb yb (ix1 r) = rowMax (qrow xb r) (kmat yb) := by
  unfold maxima
  refine (Ideal.multiReduction_maximumf_single (scores xb yb) 0xFF800000#32 reduces_S1024x2048_S1024 (.inl rfl) rfl
    (ix1 r)).trans ?_
  unfold rowMax
  show Finset.fold max negInf _ (Finset.univ : Finset (Fin 2048)) = Finset.fold max negInf _ Finset.univ
  congr 1
  funext j
  exact (congrArg (scores xb yb) (lift_row r j)).trans (scores_at xb yb r j)

theorem exps_at (r : Fin 1024) (j : Fin 2048) : exps xb yb (ix2 r j) = weight (qrow xb r) (kmat yb) j := by
  unfold exps
  show Ideal.exp (scores xb yb (ix2 r j)
    - broadcastTo S1024x2048 (shapeCast S1024x1 (maxima xb yb) shapeCasts_S1024_S1024x1) broadcasts_S1024x1_S1024x2048 (ix2 r j)) = _
  rw [RowLayout.broadcastTo_a1_ab_apply, RowLayout.shapeCast_a_a1_apply, scores_at, maxima_at]
  rfl

theorem sums_at (r : Fin 1024) : sums xb yb (ix1 r) = total (qrow xb r) (kmat yb) := by
  unfold sums
  refine (Ideal.multiReduction_add_single (exps xb yb) 0x00000000#32 reduces_S1024x2048_S1024 (.inl rfl) rfl
    (ix1 r)).trans ?_
  unfold total
  show ∑ j : Fin 2048, exps xb yb (reduces_S1024x2048_S1024.lift (ix1 r) j) = _
  refine Finset.sum_congr rfl fun j _ => ?_
  rw [lift_row]
  exact exps_at xb yb r j

theorem quots_at (r : Fin 1024) (j : Fin 2048) :
    quots xb yb (ix2 r j) = Ideal.div (weight (qrow xb r) (kmat yb) j) (total (qrow xb r) (kmat yb)) := by
  unfold quots
  show Ideal.div (exps xb yb (ix2 r j))
    (broadcastTo S1024x2048 (shapeCast S1024x1 (sums xb yb) shapeCasts_S1024_S1024x1) broadcasts_S1024x1_S1024x2048 (ix2 r j)) = _
  rw [RowLayout.broadcastTo_a1_ab_apply, RowLayout.shapeCast_a_a1_apply, exps_at, sums_at]

theorem mixed_at (r : Fin 1024) (d : Fin 128) : mixed xb yb (ix2 r d) = attend (qrow xb r) (kmat yb) d := by
  unfold mixed
  rw [rows_cols_at]
  unfold attend
  refine Finset.sum_congr rfl fun j _ => ?_
  rw [truncf_apply, quots_at, shapeCast_1ab_ab_apply]
  rfl

/-- The block the body writes, at row `r` and column `d`: the query's entry plus the attended value of the query
    block's row `r` against the key block. -/
theorem payload_at (r : Fin 1024) (d : Fin 128) :
    k0_pay1 (F := Ideal) xb yb (ix3 (0 : Fin 1) r d) = xb (ix3 (0 : Fin 1) r d) + attend (qrow xb r) (kmat yb) d := by
  rw [payload_eq, shapeCast_ab_1ab_apply]
  show shapeCast S1024x128 xb shapeCasts_S1x1024x128_S1024x128 (ix2 r d) + mixed xb yb (ix2 r d) = _
  rw [shapeCast_1ab_ab_apply, mixed_at]

end Cert.Attention.Body

end
-- ==== Proof.Blocks.lean ====
/-
  From blocks to the whole array.

  The grid has 8 × 2 points. At point `(b, q)` the query window holds rows `1024 q … 1024 q + 1023` of batch entry `b`
  of `x`, the key window holds the whole of batch entry `b` of `y` (converted to the narrower float format before the
  call, which is the identity on the extended reals), and the output window is written back to the same rows of batch
  entry `b` of the result. So entry `(0, r, d)` of a block is entry `(b, 1024 q + r, d)` of its array, the query row
  of that entry is row `r` of the query block, and its key matrix is the key block: what a point writes back is the
  block of the attention function of the two argument arrays. The 16 blocks tile the result, so the array ends as
  that function.
-/
import proofs.«177435_j50568944943603_2_alg».proof.Proof.Gen.KernelIdeal.Value
import proofs.«177435_j50568944943603_2_alg».proof.Proof.Payload
import Idealize.ShloMosaic.Lib.StableHlo.Run

set_option maxRecDepth 16384

noncomputable section

namespace Cert.Attention.Blocks

open Cert.KernelIdeal Cert.KernelIdeal.Gen Cert.Attention
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem offsets_zero : (![0, 0, 0] : Fin 3 → Nat) = fun _ => 0 := funext fun a => by fin_cases a <;> rfl

/-- The index maps over the 16 grid points: the query window moves with the output window on the batch and row axes;
    the key window moves with it on the batch axis only; every other block index is zero; the batch index is below 8
    and the row-block index below 2. -/
theorem index_facts : ∀ t : Fin cfg0.N,
    win0_0.index t (0 : Fin 3) = win0_2.index t (0 : Fin 3)
    ∧ win0_0.index t (1 : Fin 3) = win0_2.index t (1 : Fin 3)
    ∧ win0_0.index t (2 : Fin 3) = 0
    ∧ win0_1.index t (0 : Fin 3) = win0_2.index t (0 : Fin 3)
    ∧ win0_1.index t (1 : Fin 3) = 0
    ∧ win0_1.index t (2 : Fin 3) = 0
    ∧ win0_2.index t (0 : Fin 3) ≤ 7
    ∧ win0_2.index t (1 : Fin 3) ≤ 1
    ∧ win0_2.index t (2 : Fin 3) = 0 :=
  (by decide +kernel : ∀ t : Fin grid0.N, _)

/-- Every pair of a batch entry and a row block is some point's. -/
theorem index_onto : ∀ (q0 : Fin 8) (q1 : Fin 2), ∃ t : Fin cfg0.N, win0_2.index t = ![q0.val, q1.val, 0] :=
  (by decide +kernel : ∀ (q0 : Fin 8) (q1 : Fin 2), ∃ t : Fin grid0.N, win0_2.index t = ![q0.val, q1.val, 0])

/-- The batch entry point `t` works on. -/
def batchAt (t : Fin cfg0.N) : Fin 8 :=
  ⟨win0_2.index t (0 : Fin 3), by have := (index_facts t).2.2.2.2.2.2.1; omega⟩

/-- The array row that row `r` of point `t`'s block is. -/
def rowAt (t : Fin cfg0.N) (r : Fin 1024) : Fin 2048 :=
  ⟨win0_2.index t (1 : Fin 3) * 1024 + r.val, by
    have := (index_facts t).2.2.2.2.2.2.2.1; have := r.isLt; omega⟩

/-- Entry `(0, r, d)` of point `t`'s output block is entry `(b, 1024 q + r, d)` of the result. -/
theorem emb_out (t : Fin cfg0.N) (r : Fin 1024) (d : Fin 128) :
    ((cfg0.win 2).blk t).view.emb (ix3 (0 : Fin 1) r d) = ix3 (batchAt t) (rowAt t r) d := by
  obtain ⟨e0, e1, e2, e3, e4, e5, e6, e7, e8⟩ := index_facts t
  funext a; apply Fin.ext
  match a with
  | ⟨0, _⟩ => show win0_2.index t (0 : Fin 3) * 1 + 1 * 0 = win0_2.index t (0 : Fin 3); omega
  | ⟨1, _⟩ => show win0_2.index t (1 : Fin 3) * 1024 + 1 * r.val = win0_2.index t (1 : Fin 3) * 1024 + r.val; omega
  | ⟨2, _⟩ => show win0_2.index t (2 : Fin 3) * 128 + 1 * d.val = d.val; omega

/-- Entry `(0, r, k)` of point `t`'s query block is entry `(b, 1024 q + r, k)` of `x`. -/
theorem emb_query (t : Fin cfg0.N) (r : Fin 1024) (k : Fin 128) :
    ((cfg0.win 0).blk t).view.emb (ix3 (0 : Fin 1) r k) = ix3 (batchAt t) (rowAt t r) k := by
  obtain ⟨e0, e1, e2, e3, e4, e5, e6, e7, e8⟩ := index_facts t
  funext a; apply Fin.ext
  match a with
  | ⟨0, _⟩ => show win0_0.index t (0 : Fin 3) * 1 + 1 * 0 = win0_2.index t (0 : Fin 3); omega
  | ⟨1, _⟩ => show win0_0.index t (1 : Fin 3) * 1024 + 1 * r.val = win0_2.index t (1 : Fin 3) * 1024 + r.val; omega
  | ⟨2, _⟩ => show win0_0.index t (2 : Fin 3) * 128 + 1 * k.val = k.val; omega

/-- Entry `(0, j, k)` of point `t`'s key block is entry `(b, j, k)` of the converted `y`. -/
theorem emb_keys (t : Fin cfg0.N) (j : Fin 2048) (k : Fin 128) :
    ((cfg0.win 1).blk t).view.emb (ix3 (0 : Fin 1) j k) = ix3 (batchAt t) j k := by
  obtain ⟨e0, e1, e2, e3, e4, e5, e6, e7, e8⟩ := index_facts t
  funext a; apply Fin.ext
  match a with
  | ⟨0, _⟩ => show win0_1.index t (0 : Fin 3) * 1 + 1 * 0 = win0_2.index t (0 : Fin 3); omega
  | ⟨1, _⟩ => show win0_1.index t (1 : Fin 3) * 2048 + 1 * j.val = j.val; omega
  | ⟨2, _⟩ => show win0_1.index t (2 : Fin 3) * 128 + 1 * k.val = k.val; omega

/-- The key window's array when the call is entered: `y` after the one conversion of float format. -/
theorem keys_entry (c : Dev nD) (i : S8x2048x128.Idx) :
    V m c main_v0 i = m ((c : Thread nD τ).loc main_arg1) i := by
  have e : V m c main_v0 = fun i => m ((c : Thread nD τ).loc main_arg1) i := by
    dsimp only [Gen.V, Gen.hostOps0]; after_results; rfl
  rw [e]

/-- What point `t` writes back is its block of the attention function of the two argument arrays. -/
theorem flushed_eq (c : Dev nD) (t : Fin cfg0.N) :
    (dats m 0 c).flushed 2 t = ((cfg0.win 2).blk t).view.read (Elt Ideal)
      (out (m ((c : Thread nD τ).loc main_arg0)) (m ((c : Thread nD τ).loc main_arg1))) := by
  rw [Cert.KernelIdeal.Value.flushed2]
  unfold out0_2
  rw [View.canon_unit_zero offsets_zero]
  simp only [View.ld_unit_zero (S := S1x1024x128) offsets_zero, View.ld_unit_zero (S := S1x2048x128) offsets_zero]
  funext j
  obtain ⟨u, r, d, rfl⟩ : ∃ (u : Fin 1) (r : Fin 1024) (d : Fin 128), j = ix3 u r d := ⟨j 0, j 1, j 2, eq_ix3 j⟩
  obtain rfl : u = 0 := Subsingleton.elim _ _
  show k0_pay1 (F := Ideal) (iblk m c 0 t) (iblk m c 1 t) (ix3 (0 : Fin 1) r d)
    = out (m ((c : Thread nD τ).loc main_arg0)) (m ((c : Thread nD τ).loc main_arg1))
        (((cfg0.win 2).blk t).view.emb (ix3 (0 : Fin 1) r d))
  rw [emb_out, out_ix3]
  refine (Body.payload_at (iblk m c 0 t) (iblk m c 1 t) r d).trans ?_
  have hq : ∀ k : Fin 128, iblk m c 0 t (ix3 (0 : Fin 1) r k)
      = m ((c : Thread nD τ).loc main_arg0) (ix3 (batchAt t) (rowAt t r) k) := fun k => by
    show V m c main_arg0 (((cfg0.win 0).blk t).view.emb (ix3 (0 : Fin 1) r k)) = _
    rw [emb_query, V_main_arg0]
  have hk : ∀ (j : Fin 2048) (k : Fin 128), iblk m c 1 t (ix3 (0 : Fin 1) j k)
      = m ((c : Thread nD τ).loc main_arg1) (ix3 (batchAt t) j k) := fun j k => by
    show V m c main_v0 (((cfg0.win 1).blk t).view.emb (ix3 (0 : Fin 1) j k)) = _
    rw [emb_keys, keys_entry]
  have e1 : Body.qrow (iblk m c 0 t) r = rowOf (m ((c : Thread nD τ).loc main_arg0)) (batchAt t) (rowAt t r) :=
    funext fun k => hq k
  have e2 : Body.kmat (iblk m c 1 t) = keysOf (m ((c : Thread nD τ).loc main_arg1)) (batchAt t) :=
    funext fun j => funext fun k => hk j k
  rw [e1, e2, hq d]

/-- An index of the result is in point `t`'s block iff each coordinate is in the block's range on its axis. -/
theorem mem_block (t : Fin cfg0.N) (i : S8x2048x128.Idx) :
    i ∈ ((cfg0.win 2).blk t).view.set ↔ ∀ a : Fin 3, win0_2.index t a * S1x1024x128.size a ≤ (i a).val
      ∧ (i a).val < win0_2.index t a * S1x1024x128.size a + S1x1024x128.size a := by
  show i ∈ ((View.whole main_v1).slice (win0_2.rect t)).set ↔ _
  rw [View.set_slice_whole, Rect.mem_set_unit]
  exact Iff.rfl

/-- Every index of the result is in some point's block: the point of its batch entry and of its row's half. -/
theorem covered (i : S8x2048x128.Idx) :
    ∃ t : Fin cfg0.N, (cfg0.win 2).flush t = true ∧ i ∈ ((cfg0.win 2).blk t).view.set := by
  have hi0 : (i 0).val < 8 := (i 0).isLt
  have hi1 : (i 1).val < 2048 := (i 1).isLt
  have hi2 : (i 2).val < 128 := (i 2).isLt
  obtain ⟨t, ht⟩ := index_onto ⟨(i 0).val, hi0⟩ ⟨(i 1).val / 1024, by omega⟩
  have q0 : win0_2.index t (0 : Fin 3) = (i 0).val := congrFun ht 0
  have q1 : win0_2.index t (1 : Fin 3) = (i 1).val / 1024 := congrFun ht 1
  have q2 : win0_2.index t (2 : Fin 3) = 0 := congrFun ht 2
  refine ⟨t, flush0_2 t, ?_⟩
  rw [mem_block]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 128 ≤ (i 2).val ∧ (i 2).val < win0_2.index t (2 : Fin 3) * 128 + 128; omega

/-- After the run the result array is the attention function of the two argument arrays. -/
theorem final (c : Dev nD) : (dats m 0 c).arrAt 2 cfg0.N
    = out (m ((c : Thread nD τ).loc main_arg0)) (m ((c : Thread nD τ).loc main_arg1)) :=
  (dats m 0 c).arrAt_eq_of_cover 2 _ (fun t _ => flushed_eq m c t) covered

/-- The kernel's run: it terminates with the result array at the attention function of the arguments, and the
    arguments unchanged. -/
theorem run : θ_run defs (onTc (τ := τ) (main (F := Ideal))) ⟨m, fun _ => 0, ρ⟩ fun r => ∀ c : Dev nD,
      r.2.mem ((c : Thread nD τ).loc main_v1)
        = out (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.Attention.Blocks

end
-- ==== Proof.lean ====
/-
  The kernel and its reference compute one function of their two arguments.

  Both programs take `x` and `y`, eight matrices of 2048 rows and 128 columns each. For every batch entry and query
  row they take the inner products of the row of `x` with every row of `y` (the scores), turn them into weights by the
  softmax — the largest score taken off, the exponential applied, the exponentials divided by their sum — and add to the
  row of `x` the weighted sum of the rows of `y` (Proof/Spec.lean states this as one function, `Cert.Attention.out`).

  The reference does this on whole arrays; read stage by stage at an index it is that function (Proof/RefIsSpec.lean).
  The one step that is not the same operation on both sides is a maximum with −∞ the reference takes after the row
  maximum: a fold of `max` that starts from −∞ is at least −∞, so it changes nothing.

  The kernel does it block by block: a grid point holds 1024 query rows and the whole key matrix of one batch entry,
  and what it writes is the function on those rows (Proof/Payload.lean); the sixteen blocks tile the result
  (Proof/Blocks.lean). Changes of float format are the identity on the extended reals, and the sums of both sides are
  sums over the same index sets, so no law beyond these is needed and the inputs' finiteness is never used.

  No operation of the kernel was rewritten when it was idealized, so the idealized kernel is the kernel's own text read
  on the extended reals and that conjunct is trivial. The frames of the two kernel programs are the generated ones; the
  reference's is its run with the result dropped.
-/
import proofs.«177435_j50568944943603_2_alg».proof.Defs
import proofs.«177435_j50568944943603_2_alg».proof.Proof.Gen.Kernel
import proofs.«177435_j50568944943603_2_alg».proof.Proof.Gen.Kernel.Skeleton
import proofs.«177435_j50568944943603_2_alg».proof.Proof.Gen.Kernel.Launch
import proofs.«177435_j50568944943603_2_alg».proof.Proof.Gen.Kernel.Points
import proofs.«177435_j50568944943603_2_alg».proof.Proof.Gen.Kernel.Frame
import proofs.«177435_j50568944943603_2_alg».proof.Proof.Gen.KernelIdeal
import proofs.«177435_j50568944943603_2_alg».proof.Proof.Gen.KernelIdeal.Skeleton
import proofs.«177435_j50568944943603_2_alg».proof.Proof.Gen.KernelIdeal.Launch
import proofs.«177435_j50568944943603_2_alg».proof.Proof.Gen.KernelIdeal.Points
import proofs.«177435_j50568944943603_2_alg».proof.Proof.Gen.KernelIdeal.Frame
import proofs.«177435_j50568944943603_2_alg».proof.Proof.Gen.ReferenceIdeal
import proofs.«177435_j50568944943603_2_alg».proof.Proof.Gen.Pre_finite_inputs
import proofs.«177435_j50568944943603_2_alg».proof.Proof.Gen.KernelIdeal.Value
import proofs.«177435_j50568944943603_2_alg».proof.Proof.Gen.ReferenceIdeal.Run
import proofs.«177435_j50568944943603_2_alg».proof.Proof.Gen.ReferenceIdeal.Read
import proofs.«177435_j50568944943603_2_alg».proof.Proof.RefIsSpec
import proofs.«177435_j50568944943603_2_alg».proof.Proof.Blocks
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its result dropped: it terminates and leaves its arguments as they were. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments, the kernel's result array ends at the attention function of the
    arguments (the blocks tiled), and the reference's ends at its last stage, which is the same function. -/
theorem algebraic : Cert.algebraic_KernelIdeal_ReferenceIdeal := by
  intro m ρ m' ρ' _ hagree
  refine ⟨_, Cert.Attention.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.Attention.Ref.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
